-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x1024 : Shape := ⟨3, ![16, 4096, 1024]⟩
abbrev S16x2048 : Shape := ⟨2, ![16, 2048]⟩
abbrev S1024x2048 : Shape := ⟨2, ![1024, 2048]⟩
abbrev S1024 : Shape := ⟨1, ![1024]⟩
abbrev S1024x1024 : Shape := ⟨2, ![1024, 1024]⟩
abbrev S16x1024 : Shape := ⟨2, ![16, 1024]⟩
abbrev S16x768 : Shape := ⟨2, ![16, 768]⟩
abbrev S1024x768 : Shape := ⟨2, ![1024, 768]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S16x2048 : S_.BroadcastsInDim S16x2048 (![] : Fin 0 → Fin S16x2048.rank)
  reducesTo_S16x2048_S_d0_1 : S16x2048.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S16x1024 : S_.BroadcastsInDim S16x1024 (![] : Fin 0 → Fin S16x1024.rank)
  reducesTo_S16x1024_S_d0_1 : S16x1024.ReducesTo [0, 1] S_
  bcast_S_S16x768 : S_.BroadcastsInDim S16x768 (![] : Fin 0 → Fin S16x768.rank)
  reducesTo_S16x768_S_d0_1 : S16x768.ReducesTo [0, 1] S_
  bcast_S_S1024x768 : S_.BroadcastsInDim S1024x768 (![] : Fin 0 → Fin S1024x768.rank)
  reducesTo_S1024x768_S_d0_1 : S1024x768.ReducesTo [0, 1] S_

variable [Facts]

def fn_part6 {F : FTy → Type} [FloatOps F] (main_arg21 : FVec F S1024 .f32) (main_v98 : IVec S_ 1) (main_v101 : IVec S1024x1024 1) (main_c_39 : IVec S_ 1) : IVec S_ 1 :=
  let main_v102 : IVec S_ 1 := (fun x v => Host.reduce IntOp.andi x v reducesTo_S1024x1024_S_d0_1 h_S_) main_v101 main_c_39
  let main_v103 : IVec S_ 1 := andi main_v98 main_v102
  let main_v104 : FVec F S1024 .f32 := Host.absf main_arg21
  let main_cst_40 : FVec F S_ .f32 := constant S_ .f32 0x7F800000#32
  let main_v105 : FVec F S1024 .f32 := broadcastInDim S1024 ![] bcast_S_S1024 main_cst_40
  let main_v106 : IVec S1024 1 := cmpf .olt main_v104 main_v105
  let main_c_41 : IVec S_ 1 := constantI S_ 1 1#1
  let main_v107 : IVec S_ 1 := (fun x v => Host.reduce IntOp.andi x v reducesTo_S1024_S_d0 h_S_) main_v106 main_c_41
  let main_v108 : IVec S_ 1 := andi main_v103 main_v107
  main_v108

def fn_part5 {F : FTy → Type} [FloatOps F] (main_arg18 : FVec F S1024x1024 .f32) (main_arg19 : FVec F S1024 .f32) (main_arg20 : FVec F S1024x1024 .f32) (main_arg21 : FVec F S1024 .f32) (main_v83 : IVec S_ 1) (main_v84 : FVec F S1024 .f32) (main_cst_32 : FVec F S_ .f32) : IVec S_ 1 :=
  let main_v85 : FVec F S1024 .f32 := broadcastInDim S1024 ![] bcast_S_S1024 main_cst_32
  let main_v86 : IVec S1024 1 := cmpf .olt main_v84 main_v85
  let main_c_33 : IVec S_ 1 := constantI S_ 1 1#1
  let main_v87 : IVec S_ 1 := (fun x v => Host.reduce IntOp.andi x v reducesTo_S1024_S_d0 h_S_) main_v86 main_c_33
  let main_v88 : IVec S_ 1 := andi main_v83 main_v87
  let main_v89 : FVec F S1024x1024 .f32 := Host.absf main_arg18
  let main_cst_34 : FVec F S_ .f32 := constant S_ .f32 0x7F800000#32
  let main_v90 : FVec F S1024x1024 .f32 := broadcastInDim S1024x1024 ![] bcast_S_S1024x1024 main_cst_34
  let main_v91 : IVec S1024x1024 1 := cmpf .olt main_v89 main_v90
  let main_c_35 : IVec S_ 1 := constantI S_ 1 1#1
  let main_v92 : IVec S_ 1 := (fun x v => Host.reduce IntOp.andi x v reducesTo_S1024x1024_S_d0_1 h_S_) main_v91 main_c_35
  let main_v93 : IVec S_ 1 := andi main_v88 main_v92
  let main_v94 : FVec F S1024 .f32 := Host.absf main_arg19
  let main_cst_36 : FVec F S_ .f32 := constant S_ .f32 0x7F800000#32
  let main_v95 : FVec F S1024 .f32 := broadcastInDim S1024 ![] bcast_S_S1024 main_cst_36
  let main_v96 : IVec S1024 1 := cmpf .olt main_v94 main_v95
  let main_c_37 : IVec S_ 1 := constantI S_ 1 1#1
  let main_v97 : IVec S_ 1 := (fun x v => Host.reduce IntOp.andi x v reducesTo_S1024_S_d0 h_S_) main_v96 main_c_37
  let main_v98 : IVec S_ 1 := andi main_v93 main_v97
  let main_v99 : FVec F S1024x1024 .f32 := Host.absf main_arg20
  let main_cst_38 : FVec F S_ .f32 := constant S_ .f32 0x7F800000#32
  let main_v100 : FVec F S1024x1024 .f32 := broadcastInDim S1024x1024 ![] bcast_S_S1024x1024 main_cst_38
  let main_v101 : IVec S1024x1024 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S1024 .f32) (main_arg15 : FVec F S16x768 .f32) (main_arg16 : FVec F S1024x768 .f32) (main_arg17 : FVec F S1024 .f32) (main_arg18 : FVec F S1024x1024 .f32) (main_arg19 : FVec F S1024 .f32) (main_arg20 : FVec F S1024x1024 .f32) (main_arg21 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S16x768 .f32 := Host.absf main_arg15
  let main_cst_28 : FVec F S_ .f32 := constant S_ .f32 0x7F800000#32
  let main_v75 : FVec F S16x768 .f32 := broadcastInDim S16x768 ![] bcast_S_S16x768 main_cst_28
  let main_v76 : IVec S16x768 1 := cmpf .olt main_v74 main_v75
  let main_c_29 : IVec S_ 1 := constantI S_ 1 1#1
  let main_v77 : IVec S_ 1 := (fun x v => Host.reduce IntOp.andi x v reducesTo_S16x768_S_d0_1 h_S_) main_v76 main_c_29
  let main_v78 : IVec S_ 1 := andi main_v73 main_v77
  let main_v79 : FVec F S1024x768 .f32 := Host.absf main_arg16
  let main_cst_30 : FVec F S_ .f32 := constant S_ .f32 0x7F800000#32
  let main_v80 : FVec F S1024x768 .f32 := broadcastInDim S1024x768 ![] bcast_S_S1024x768 main_cst_30
  let main_v81 : IVec S1024x768 1 := cmpf .olt main_v79 main_v80
  let main_c_31 : IVec S_ 1 := constantI S_ 1 1#1
  let main_v82 : IVec S_ 1 := (fun x v => Host.reduce IntOp.andi x v reducesTo_S1024x768_S_d0_1 h_S_) main_v81 main_c_31
  let main_v83 : IVec S_ 1 := andi main_v78 main_v82
  let main_v84 : FVec F S1024 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S1024x1024 .f32) (main_arg12 : FVec F S1024 .f32) (main_arg13 : FVec F S1024x1024 .f32) (main_arg14 : FVec F S1024 .f32) (main_arg15 : FVec F S16x768 .f32) (main_arg16 : FVec F S1024x768 .f32) (main_arg17 : FVec F S1024 .f32) (main_arg18 : FVec F S1024x1024 .f32) (main_arg19 : FVec F S1024 .f32) (main_arg20 : FVec F S1024x1024 .f32) (main_arg21 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S1024 .f32) (main_arg8 : FVec F S16x1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S16x768 .f32) (main_arg16 : FVec F S1024x768 .f32) (main_arg17 : FVec F S1024 .f32) (main_arg18 : FVec F S1024x1024 .f32) (main_arg19 : FVec F S1024 .f32) (main_arg20 : FVec F S1024x1024 .f32) (main_arg21 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S16x1024 .f32 := Host.absf main_arg8
  let main_cst_14 : FVec F S_ .f32 := constant S_ .f32 0x7F800000#32
  let main_v40 : FVec F S16x1024 .f32 := broadcastInDim S16x1024 ![] bcast_S_S16x1024 main_cst_14
  let main_v41 : IVec S16x1024 1 := cmpf .olt main_v39 main_v40
  let main_c_15 : IVec S_ 1 := constantI S_ 1 1#1
  let main_v42 : IVec S_ 1 := (fun x v => Host.reduce IntOp.andi x v reducesTo_S16x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S16x1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S16x768 .f32) (main_arg16 : FVec F S1024x768 .f32) (main_arg17 : FVec F S1024 .f32) (main_arg18 : FVec F S1024x1024 .f32) (main_arg19 : FVec F S1024 .f32) (main_arg20 : FVec F S1024x1024 .f32) (main_arg21 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S16x4096x1024 .f32) (main_arg1 : FVec F S16x2048 .f32) (main_arg2 : FVec F S1024x2048 .f32) (main_arg3 : FVec F S1024 .f32) (main_arg4 : FVec F S1024x1024 .f32) (main_arg5 : FVec F S1024 .f32) (main_arg6 : FVec F S1024x1024 .f32) (main_arg7 : FVec F S1024 .f32) (main_arg8 : FVec F S16x1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S16x768 .f32) (main_arg16 : FVec F S1024x768 .f32) (main_arg17 : FVec F S1024 .f32) (main_arg18 : FVec F S1024x1024 .f32) (main_arg19 : FVec F S1024 .f32) (main_arg20 : FVec F S1024x1024 .f32) (main_arg21 : FVec F S1024 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_v4 : FVec F S16x2048 .f32 := Host.absf main_arg1
  let main_cst_0 : FVec F S_ .f32 := constant S_ .f32 0x7F800000#32
  let main_v5 : FVec F S16x2048 .f32 := broadcastInDim S16x2048 ![] bcast_S_S16x2048 main_cst_0
  let main_v6 : IVec S16x2048 1 := cmpf .olt main_v4 main_v5
  let main_c_1 : IVec S_ 1 := constantI S_ 1 1#1
  let main_v7 : IVec S_ 1 := (fun x v => Host.reduce IntOp.andi x v reducesTo_S16x2048_S_d0_1 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S16x4096x1024 : Shape := ⟨3, ![16, 4096, 1024]⟩
abbrev S16x2048 : Shape := ⟨2, ![16, 2048]⟩
abbrev S1024x2048 : Shape := ⟨2, ![1024, 2048]⟩
abbrev S1024 : Shape := ⟨1, ![1024]⟩
abbrev S1024x1024 : Shape := ⟨2, ![1024, 1024]⟩
abbrev S16x1024 : Shape := ⟨2, ![16, 1024]⟩
abbrev S16x768 : Shape := ⟨2, ![16, 768]⟩
abbrev S1024x768 : Shape := ⟨2, ![1024, 768]⟩
abbrev S2048x1024 : Shape := ⟨2, ![2048, 1024]⟩
abbrev S1x1024 : Shape := ⟨2, ![1, 1024]⟩
abbrev S768x1024 : Shape := ⟨2, ![768, 1024]⟩
abbrev S16x1x1024 : Shape := ⟨3, ![16, 1, 1024]⟩
abbrev S1x2048x1024 : Shape := ⟨3, ![1, 2048, 1024]⟩
abbrev S1x1x1024 : Shape := ⟨3, ![1, 1, 1024]⟩

abbrev nBuf : Space → Nat
  | .hbm => 71
  | .vmem => 6
  | .smem => 0
  | _ => 0

abbrev bufTy : (tb : Table) → Fin (tcTables nBuf tb) → BufTy
  | .hbm, ⟨0, _⟩ => ⟨S16x4096x1024, .f32⟩
  | .hbm, ⟨1, _⟩ => ⟨S16x2048, .f32⟩
  | .hbm, ⟨2, _⟩ => ⟨S1024x2048, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S16x1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S16x768, .f32⟩
  | .hbm, ⟨16, _⟩ => ⟨S1024x768, .f32⟩
  | .hbm, ⟨17, _⟩ => ⟨S1024, .f32⟩
  | .hbm, ⟨18, _⟩ => ⟨S1024x1024, .f32⟩
  | .hbm, ⟨19, _⟩ => ⟨S1024, .f32⟩
  | .hbm, ⟨20, _⟩ => ⟨S1024x1024, .f32⟩
  | .hbm, ⟨21, _⟩ => ⟨S1024, .f32⟩
  | .hbm, ⟨22, _⟩ => ⟨S2048x1024, .f32⟩
  | .hbm, ⟨23, _⟩ => ⟨S16x1024, .f32⟩
  | .hbm, ⟨24, _⟩ => ⟨S1x1024, .f32⟩
  | .hbm, ⟨25, _⟩ => ⟨S16x1024, .f32⟩
  | .hbm, ⟨26, _⟩ => ⟨S16x1024, .f32⟩
  | .hbm, ⟨27, _⟩ => ⟨S1024x1024, .f32⟩
  | .hbm, ⟨28, _⟩ => ⟨S16x1024, .f32⟩
  | .hbm, ⟨29, _⟩ => ⟨S1x1024, .f32⟩
  | .hbm, ⟨30, _⟩ => ⟨S16x1024, .f32⟩
  | .hbm, ⟨31, _⟩ => ⟨S16x1024, .f32⟩
  | .hbm, ⟨32, _⟩ => ⟨S1024x1024, .f32⟩
  | .hbm, ⟨33, _⟩ => ⟨S16x1024, .f32⟩
  | .hbm, ⟨34, _⟩ => ⟨S1x1024, .f32⟩
  | .hbm, ⟨35, _⟩ => ⟨S16x1024, .f32⟩
  | .hbm, ⟨36, _⟩ => ⟨S16x1024, .f32⟩
  | .hbm, ⟨37, _⟩ => ⟨S1024x1024, .f32⟩
  | .hbm, ⟨38, _⟩ => ⟨S16x1024, .f32⟩
  | .hbm, ⟨39, _⟩ => ⟨S1x1024, .f32⟩
  | .hbm, ⟨40, _⟩ => ⟨S16x1024, .f32⟩
  | .hbm, ⟨41, _⟩ => ⟨S16x1024, .f32⟩
  | .hbm, ⟨42, _⟩ => ⟨S1024x1024, .f32⟩
  | .hbm, ⟨43, _⟩ => ⟨S16x1024, .f32⟩
  | .hbm, ⟨44, _⟩ => ⟨S1x1024, .f32⟩
  | .hbm, ⟨45, _⟩ => ⟨S16x1024, .f32⟩
  | .hbm, ⟨46, _⟩ => ⟨S16x1024, .f32⟩
  | .hbm, ⟨47, _⟩ => ⟨S1024x1024, .f32⟩
  | .hbm, ⟨48, _⟩ => ⟨S16x1024, .f32⟩
  | .hbm, ⟨49, _⟩ => ⟨S1x1024, .f32⟩
  | .hbm, ⟨50, _⟩ => ⟨S16x1024, .f32⟩
  | .hbm, ⟨51, _⟩ => ⟨S16x1024, .f32⟩
  | .hbm, ⟨52, _⟩ => ⟨S16x1024, .f32⟩
  | .hbm, ⟨53, _⟩ => ⟨S768x1024, .f32⟩
  | .hbm, ⟨54, _⟩ => ⟨S16x1024, .f32⟩
  | .hbm, ⟨55, _⟩ => ⟨S1x1024, .f32⟩
  | .hbm, ⟨56, _⟩ => ⟨S16x1024, .f32⟩
  | .hbm, ⟨57, _⟩ => ⟨S16x1024, .f32⟩
  | .hbm, ⟨58, _⟩ => ⟨S1024x1024, .f32⟩
  | .hbm, ⟨59, _⟩ => ⟨S16x1024, .f32⟩
  | .hbm, ⟨60, _⟩ => ⟨S1x1024, .f32⟩
  | .hbm, ⟨61, _⟩ => ⟨S16x1024, .f32⟩
  | .hbm, ⟨62, _⟩ => ⟨S16x1024, .f32⟩
  | .hbm, ⟨63, _⟩ => ⟨S1024x1024, .f32⟩
  | .hbm, ⟨64, _⟩ => ⟨S16x1024, .f32⟩
  | .hbm, ⟨65, _⟩ => ⟨S1x1024, .f32⟩
  | .hbm, ⟨66, _⟩ => ⟨S16x1024, .f32⟩
  | .hbm, ⟨67, _⟩ => ⟨S16x1024, .f32⟩
  | .hbm, ⟨68, _⟩ => ⟨S16x1024, .f32⟩
  | .hbm, ⟨69, _⟩ => ⟨S16x1x1024, .f32⟩
  | .hbm, ⟨70, _⟩ => ⟨S16x4096x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x2048x1024, .f32⟩
  | .local _ .vmem, ⟨5, _⟩ => ⟨S1x2048x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_v15 : Ref sig .tc := ⟨.hbm, 37, rfl⟩
abbrev main_call0_v16 : Ref sig .tc := ⟨.hbm, 38, rfl⟩
abbrev main_call0_v17 : Ref sig .tc := ⟨.hbm, 39, rfl⟩
abbrev main_call0_v18 : Ref sig .tc := ⟨.hbm, 40, rfl⟩
abbrev main_call0_v19 : Ref sig .tc := ⟨.hbm, 41, rfl⟩
abbrev main_call0_v20 : Ref sig .tc := ⟨.hbm, 42, rfl⟩
abbrev main_call0_v21 : Ref sig .tc := ⟨.hbm, 43, rfl⟩
abbrev main_call0_v22 : Ref sig .tc := ⟨.hbm, 44, rfl⟩
abbrev main_call0_v23 : Ref sig .tc := ⟨.hbm, 45, rfl⟩
abbrev main_call0_v24 : Ref sig .tc := ⟨.hbm, 46, rfl⟩
abbrev main_call0_v25 : Ref sig .tc := ⟨.hbm, 47, rfl⟩
abbrev main_call0_v26 : Ref sig .tc := ⟨.hbm, 48, rfl⟩
abbrev main_call0_v27 : Ref sig .tc := ⟨.hbm, 49, rfl⟩
abbrev main_call0_v28 : Ref sig .tc := ⟨.hbm, 50, rfl⟩
abbrev main_call0_v29 : Ref sig .tc := ⟨.hbm, 51, rfl⟩
abbrev main_call0_v30 : Ref sig .tc := ⟨.hbm, 52, rfl⟩
abbrev main_call0_v31 : Ref sig .tc := ⟨.hbm, 53, rfl⟩
abbrev main_call0_v32 : Ref sig .tc := ⟨.hbm, 54, rfl⟩
abbrev main_call0_v33 : Ref sig .tc := ⟨.hbm, 55, rfl⟩
abbrev main_call0_v34 : Ref sig .tc := ⟨.hbm, 56, rfl⟩
abbrev main_call0_v35 : Ref sig .tc := ⟨.hbm, 57, rfl⟩
abbrev main_call0_v36 : Ref sig .tc := ⟨.hbm, 58, rfl⟩
abbrev main_call0_v37 : Ref sig .tc := ⟨.hbm, 59, rfl⟩
abbrev main_call0_v38 : Ref sig .tc := ⟨.hbm, 60, rfl⟩
abbrev main_call0_v39 : Ref sig .tc := ⟨.hbm, 61, rfl⟩
abbrev main_call0_v40 : Ref sig .tc := ⟨.hbm, 62, rfl⟩
abbrev main_call0_v41 : Ref sig .tc := ⟨.hbm, 63, rfl⟩
abbrev main_call0_v42 : Ref sig .tc := ⟨.hbm, 64, rfl⟩
abbrev main_call0_v43 : Ref sig .tc := ⟨.hbm, 65, rfl⟩
abbrev main_call0_v44 : Ref sig .tc := ⟨.hbm, 66, rfl⟩
abbrev main_call0_v45 : Ref sig .tc := ⟨.hbm, 67, rfl⟩
abbrev main_call0_v46 : Ref sig .tc := ⟨.hbm, 68, rfl⟩
abbrev main_call0_v47 : Ref sig .tc := ⟨.hbm, 69, rfl⟩
abbrev main_v0 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S1024x2048_S2048x1024_1_0 : S1024x2048.Transposes [1, 0] S2048x1024
  bcast_S1024_S1x1024_1 : S1024.BroadcastsInDim S1x1024 (![1] : Fin 1 → Fin S1x1024.rank)
  bcast_S1x1024_S16x1024_0_1 : S1x1024.BroadcastsInDim S16x1024 (![0, 1] : Fin 2 → Fin S16x1024.rank)
  transposes_S1024x1024_S1024x1024_1_0 : S1024x1024.Transposes [1, 0] S1024x1024
  transposes_S1024x768_S768x1024_1_0 : S1024x768.Transposes [1, 0] S768x1024
  shapeCasts_S16x1024_S16x1x1024 : S16x1024.ShapeCasts S16x1x1024
  inb_S1x2048x1024_S1x2048x1024_0_0_0 : ∀ a, (![0, 0, 0] : Fin 3 → Nat) a + S1x2048x1024.size a ≤ S1x2048x1024.size a
  h_S1x2048x1024 : 0 < S1x2048x1024.numel
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1x1024 : S1x1x1024.ShapeCasts S1x1x1024
  broadcasts_S1x1x1024_S1x2048x1024 : S1x1x1024.Broadcasts S1x2048x1024
  dot_S16x2048_S2048x1024_S16x1024_1_0_0_1_n_n_wf : DotDims.WF S16x2048 S2048x1024 S16x1024 [1] [0] [0] [1] [] []
  dot_S16x1024_S1024x1024_S16x1024_1_0_0_1_n_n_wf : DotDims.WF S16x1024 S1024x1024 S16x1024 [1] [0] [0] [1] [] []
  dot_S16x768_S768x1024_S16x1024_1_0_0_1_n_n_wf : DotDims.WF S16x768 S768x1024 S16x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S16x4096x1024.size a
  hwx0_0 : ∀ i : grid0.Coords, EltTy.bits .f32 = 32 ∨ (Rect.block (s := S16x4096x1024) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S16x1x1024.size a
  hwx0_1 : ∀ i : grid0.Coords, EltTy.bits .f32 = 32 ∨ (Rect.block (s := S16x1x1024) S1x1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S16x4096x1024.size a
  hwx0_2 : ∀ i : grid0.Coords, EltTy.bits .f32 = 32 ∨ (Rect.block (s := S16x4096x1024) S1x2048x1024.size (cc0_transform_2 i) (hinb0_2 i)).WholeWords (EltTy.packing .f32)

variable [Facts₀]

def dot_S16x2048_S2048x1024_S16x1024_1_0_0_1_n_n : DotDims S16x2048 S2048x1024 S16x1024 where
  lhsContracting := [1]
  rhsContracting := [0]
  lhsNonContracting := [0]
  rhsNonContracting := [1]
  lhsBatch := []
  rhsBatch := []
  wf := dot_S16x2048_S2048x1024_S16x1024_1_0_0_1_n_n_wf
def dot_S16x1024_S1024x1024_S16x1024_1_0_0_1_n_n : DotDims S16x1024 S1024x1024 S16x1024 where
  lhsContracting := [1]
  rhsContracting := [0]
  lhsNonContracting := [0]
  rhsNonContracting := [1]
  lhsBatch := []
  rhsBatch := []
  wf := dot_S16x1024_S1024x1024_S16x1024_1_0_0_1_n_n_wf
def dot_S16x768_S768x1024_S16x1024_1_0_0_1_n_n : DotDims S16x768 S768x1024 S16x1024 where
  lhsContracting := [1]
  rhsContracting := [0]
  lhsNonContracting := [0]
  rhsNonContracting := [1]
  lhsBatch := []
  rhsBatch := []
  wf := dot_S16x768_S768x1024_S16x1024_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v47) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 0 2

variable [Facts]
-- ==== ReferenceIdeal.lean ====
abbrev S16x4096x1024 : Shape := ⟨3, ![16, 4096, 1024]⟩
abbrev S16x2048 : Shape := ⟨2, ![16, 2048]⟩
abbrev S1024x2048 : Shape := ⟨2, ![1024, 2048]⟩
abbrev S1024 : Shape := ⟨1, ![1024]⟩
abbrev S1024x1024 : Shape := ⟨2, ![1024, 1024]⟩
abbrev S16x1024 : Shape := ⟨2, ![16, 1024]⟩
abbrev S16x768 : Shape := ⟨2, ![16, 768]⟩
abbrev S1024x768 : Shape := ⟨2, ![1024, 768]⟩
abbrev S2048x1024 : Shape := ⟨2, ![2048, 1024]⟩
abbrev S1x1024 : Shape := ⟨2, ![1, 1024]⟩
abbrev S768x1024 : Shape := ⟨2, ![768, 1024]⟩
abbrev S16x1x1024 : Shape := ⟨3, ![16, 1, 1024]⟩

abbrev nBuf : Space → Nat
  | .hbm => 72
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x2048, .f32⟩
  | .hbm, ⟨2, _⟩ => ⟨S1024x2048, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S16x1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S16x768, .f32⟩
  | .hbm, ⟨16, _⟩ => ⟨S1024x768, .f32⟩
  | .hbm, ⟨17, _⟩ => ⟨S1024, .f32⟩
  | .hbm, ⟨18, _⟩ => ⟨S1024x1024, .f32⟩
  | .hbm, ⟨19, _⟩ => ⟨S1024, .f32⟩
  | .hbm, ⟨20, _⟩ => ⟨S1024x1024, .f32⟩
  | .hbm, ⟨21, _⟩ => ⟨S1024, .f32⟩
  | .hbm, ⟨22, _⟩ => ⟨S2048x1024, .f32⟩
  | .hbm, ⟨23, _⟩ => ⟨S16x1024, .f32⟩
  | .hbm, ⟨24, _⟩ => ⟨S1x1024, .f32⟩
  | .hbm, ⟨25, _⟩ => ⟨S16x1024, .f32⟩
  | .hbm, ⟨26, _⟩ => ⟨S16x1024, .f32⟩
  | .hbm, ⟨27, _⟩ => ⟨S1024x1024, .f32⟩
  | .hbm, ⟨28, _⟩ => ⟨S16x1024, .f32⟩
  | .hbm, ⟨29, _⟩ => ⟨S1x1024, .f32⟩
  | .hbm, ⟨30, _⟩ => ⟨S16x1024, .f32⟩
  | .hbm, ⟨31, _⟩ => ⟨S16x1024, .f32⟩
  | .hbm, ⟨32, _⟩ => ⟨S1024x1024, .f32⟩
  | .hbm, ⟨33, _⟩ => ⟨S16x1024, .f32⟩
  | .hbm, ⟨34, _⟩ => ⟨S1x1024, .f32⟩
  | .hbm, ⟨35, _⟩ => ⟨S16x1024, .f32⟩
  | .hbm, ⟨36, _⟩ => ⟨S16x1024, .f32⟩
  | .hbm, ⟨37, _⟩ => ⟨S1024x1024, .f32⟩
  | .hbm, ⟨38, _⟩ => ⟨S16x1024, .f32⟩
  | .hbm, ⟨39, _⟩ => ⟨S1x1024, .f32⟩
  | .hbm, ⟨40, _⟩ => ⟨S16x1024, .f32⟩
  | .hbm, ⟨41, _⟩ => ⟨S16x1024, .f32⟩
  | .hbm, ⟨42, _⟩ => ⟨S1024x1024, .f32⟩
  | .hbm, ⟨43, _⟩ => ⟨S16x1024, .f32⟩
  | .hbm, ⟨44, _⟩ => ⟨S1x1024, .f32⟩
  | .hbm, ⟨45, _⟩ => ⟨S16x1024, .f32⟩
  | .hbm, ⟨46, _⟩ => ⟨S16x1024, .f32⟩
  | .hbm, ⟨47, _⟩ => ⟨S1024x1024, .f32⟩
  | .hbm, ⟨48, _⟩ => ⟨S16x1024, .f32⟩
  | .hbm, ⟨49, _⟩ => ⟨S1x1024, .f32⟩
  | .hbm, ⟨50, _⟩ => ⟨S16x1024, .f32⟩
  | .hbm, ⟨51, _⟩ => ⟨S16x1024, .f32⟩
  | .hbm, ⟨52, _⟩ => ⟨S16x1024, .f32⟩
  | .hbm, ⟨53, _⟩ => ⟨S768x1024, .f32⟩
  | .hbm, ⟨54, _⟩ => ⟨S16x1024, .f32⟩
  | .hbm, ⟨55, _⟩ => ⟨S1x1024, .f32⟩
  | .hbm, ⟨56, _⟩ => ⟨S16x1024, .f32⟩
  | .hbm, ⟨57, _⟩ => ⟨S16x1024, .f32⟩
  | .hbm, ⟨58, _⟩ => ⟨S1024x1024, .f32⟩
  | .hbm, ⟨59, _⟩ => ⟨S16x1024, .f32⟩
  | .hbm, ⟨60, _⟩ => ⟨S1x1024, .f32⟩
  | .hbm, ⟨61, _⟩ => ⟨S16x1024, .f32⟩
  | .hbm, ⟨62, _⟩ => ⟨S16x1024, .f32⟩
  | .hbm, ⟨63, _⟩ => ⟨S1024x1024, .f32⟩
  | .hbm, ⟨64, _⟩ => ⟨S16x1024, .f32⟩
  | .hbm, ⟨65, _⟩ => ⟨S1x1024, .f32⟩
  | .hbm, ⟨66, _⟩ => ⟨S16x1024, .f32⟩
  | .hbm, ⟨67, _⟩ => ⟨S16x1024, .f32⟩
  | .hbm, ⟨68, _⟩ => ⟨S16x1024, .f32⟩
  | .hbm, ⟨69, _⟩ => ⟨S16x1x1024, .f32⟩
  | .hbm, ⟨70, _⟩ => ⟨S16x4096x1024, .f32⟩
  | .hbm, ⟨71, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩

abbrev nD : Nat := 1
abbrev τ : Topo := Topo.v7x

variable {F : FTy → Type} [FloatOps F]

class Facts₀ : Prop where
  transposes_S1024x2048_S2048x1024_1_0 : S1024x2048.Transposes [1, 0] S2048x1024
  bcast_S1024_S1x1024_1 : S1024.BroadcastsInDim S1x1024 (![1] : Fin 1 → Fin S1x1024.rank)
  bcast_S1x1024_S16x1024_0_1 : S1x1024.BroadcastsInDim S16x1024 (![0, 1] : Fin 2 → Fin S16x1024.rank)
  transposes_S1024x1024_S1024x1024_1_0 : S1024x1024.Transposes [1, 0] S1024x1024
  transposes_S1024x768_S768x1024_1_0 : S1024x768.Transposes [1, 0] S768x1024
  bcast_S16x1024_S16x1x1024_0_2 : S16x1024.BroadcastsInDim S16x1x1024 (![0, 2] : Fin 2 → Fin S16x1x1024.rank)
  bcast_S16x1x1024_S16x4096x1024_0_1_2 : S16x1x1024.BroadcastsInDim S16x4096x1024 (![0, 1, 2] : Fin 3 → Fin S16x4096x1024.rank)
  dot_S16x2048_S2048x1024_S16x1024_1_0_0_1_n_n_wf : DotDims.WF S16x2048 S2048x1024 S16x1024 [1] [0] [0] [1] [] []
  dot_S16x1024_S1024x1024_S16x1024_1_0_0_1_n_n_wf : DotDims.WF S16x1024 S1024x1024 S16x1024 [1] [0] [0] [1] [] []
  dot_S16x768_S768x1024_S16x1024_1_0_0_1_n_n_wf : DotDims.WF S16x768 S768x1024 S16x1024 [1] [0] [0] [1] [] []

variable [Facts₀]

def dot_S16x2048_S2048x1024_S16x1024_1_0_0_1_n_n : DotDims S16x2048 S2048x1024 S16x1024 where
  lhsContracting := [1]
  rhsContracting := [0]
  lhsNonContracting := [0]
  rhsNonContracting := [1]
  lhsBatch := []
  rhsBatch := []
  wf := dot_S16x2048_S2048x1024_S16x1024_1_0_0_1_n_n_wf
def dot_S16x1024_S1024x1024_S16x1024_1_0_0_1_n_n : DotDims S16x1024 S1024x1024 S16x1024 where
  lhsContracting := [1]
  rhsContracting := [0]
  lhsNonContracting := [0]
  rhsNonContracting := [1]
  lhsBatch := []
  rhsBatch := []
  wf := dot_S16x1024_S1024x1024_S16x1024_1_0_0_1_n_n_wf
def dot_S16x768_S768x1024_S16x1024_1_0_0_1_n_n : DotDims S16x768 S768x1024 S16x1024 where
  lhsContracting := [1]
  rhsContracting := [0]
  lhsNonContracting := [0]
  rhsNonContracting := [1]
  lhsBatch := []
  rhsBatch := []
  wf := dot_S16x768_S768x1024_S16x1024_1_0_0_1_n_n_wf

class Facts : Prop extends Facts₀ where

variable [Facts]
-- ==== Proof.Spec.lean ====
/-
  The function both programs compute, and that the reference computes it.

  The result is the residual stream `s` (batch 16, positions 4096, features 1024) plus, at every position, one
  row `d` per batch element: `out[b, l, f] = s[b, l, f] + d[b, f]`. The row `d` is the sum of the three modality
  projections; it is the same term of the argument arrays in both programs, so it is never opened here: it is
  carried as the reference's own stage for it.

  The reference spreads `d` over the positions by two broadcasts (first to a unit middle axis, then along it) and
  adds; read at an index, the two broadcasts compose to dropping the position coordinate.
-/
import proofs.«114671_j3917010174786_2_alg».proof.Proof.Gen.ReferenceIdeal.Read

noncomputable section

namespace Cert.Residual

open Idealize.ShloMosaic Cert.ReferenceIdeal Cert.ReferenceIdeal.Read

variable {F : FTy → Type} [FloatOps F]

/-- The (batch, feature) pair of an index (batch, position, feature). -/
abbrev dropPos (i : S16x4096x1024.Idx) : S16x1024.Idx := fun a => match a with
  | ⟨0, _⟩ => ⟨(i 0).val, (i 0).isLt⟩
  | ⟨1, _⟩ => ⟨(i 2).val, (i 2).isLt⟩

/-- The residual add: every position of batch element `b` receives row `b` of `d`. -/
def addRow (s : S16x4096x1024.Idx → Elt F .f32) (d : S16x1024.Idx → Elt F .f32) : S16x4096x1024.Idx → Elt F .f32 :=
  fun i => FloatOps.addf (s i) (d (dropPos i))

/-- Dropping the position is what the reference's two broadcasts do to an index, one after the other. -/
theorem dropPos_eq (i : S16x4096x1024.Idx) : idx_main_v47 (idx_main_v48 i) = dropPos i :=
  funext fun a => Fin.ext (by match a with | ⟨0, _⟩ => rfl | ⟨1, _⟩ => rfl)

/-- The reference's result is the residual add of its first argument and its own row term. -/
theorem reference_eq (x0 : S16x4096x1024.Idx → Elt F .f32) (x1 x2 x3 x4 x5 x6 x7 x8 x9 x10 x11 x12 x13 x14 x15 x16 x17 x18 x19 x20 x21) :
    val_main_v49 (F := F) x0 x1 x2 x3 x4 x5 x6 x7 x8 x9 x10 x11 x12 x13 x14 x15 x16 x17 x18 x19 x20 x21
      = addRow x0 (val_main_v46 (F := F) x1 x2 x3 x4 x5 x6 x7 x8 x9 x10 x11 x12 x13 x14 x15 x16 x17 x18 x19 x20 x21) := by
  funext i
  rw [val_main_v49_apply, val_main_v48_apply, val_main_v47_apply, dropPos_eq]
  rfl

end Cert.Residual

end
-- ==== Proof.HostRow.lean ====
/-
  What the kernel's host prefix hands to the region.

  Before the tiled add the kernel's program computes, on the host, the same three modality projections as the
  reference, adds them in the same order, and reshapes the 16 x 1024 result to 16 x 1 x 1024 (a unit position
  axis, so that one block of it can be added to a whole tile of positions). The region therefore finds, in that
  operand's array, the reference's row term of the kernel's own arguments, reshaped; read at (b, 0, f) it is the
  row term at (b, f), the two indices having the same row-major position b * 1024 + f.
-/
import proofs.«114671_j3917010174786_2_alg».proof.Proof.Gen.KernelIdeal.Frame
import proofs.«114671_j3917010174786_2_alg».proof.Proof.Spec
import Idealize.ShloMosaic.Lib.StableHlo.Run
import Idealize.ShloMosaic.Lib.Pipeline.Value

noncomputable section

namespace Cert.Residual

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

/-- The row term (one row of 1024 features per batch element) of the kernel's arguments on core `c`. -/
abbrev kernelRow (c : Dev nD) : S16x1024.Idx → Elt F .f32 :=
  Cert.ReferenceIdeal.Read.val_main_v46 (F := F) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))

/-- (batch, 0, feature) ↦ (batch, feature). -/
abbrev dropUnit (j : S16x1x1024.Idx) : S16x1024.Idx := fun a => match a with
  | ⟨0, _⟩ => ⟨(j 0).val, (j 0).isLt⟩
  | ⟨1, _⟩ => ⟨(j 2).val, (j 2).isLt⟩

set_option maxRecDepth 8192 in
set_option maxHeartbeats 2000000 in
/-- The array the region's second operand stages is the row term, reshaped to a unit position axis. -/
theorem hostRow_eq (c : Dev nD) :
    (V m c main_call0_v47 : S16x1x1024.Idx → Elt F .f32)
      = fun j => shapeCast S16x1x1024 (kernelRow m c) shapeCasts_S16x1024_S16x1x1024 j := by
  dsimp only [V, hostOps0]
  after_results_simp
  rfl

/-- Read at an index, the reshape forgets the unit axis. -/
theorem hostRow_apply (c : Dev nD) (j : S16x1x1024.Idx) :
    (V m c main_call0_v47 : S16x1x1024.Idx → Elt F .f32) j = kernelRow m c (dropUnit j) := by
  rw [hostRow_eq]
  refine shapeCast_apply (kernelRow m c) shapeCasts_S16x1024_S16x1x1024 j (dropUnit j) ?_
  rw [Shape.rowMajor_val_two, Shape.rowMajor_val_three]
  have h1 : (j 1).val < 1 := (j 1).isLt
  show (j 0).val * 1024 + (j 2).val = ((j 0).val * 1 + (j 1).val) * 1024 + (j 2).val
  omega

end Cert.Residual

end
-- ==== Proof.Tiles.lean ====
/-
  From the tiles to the whole array.

  The tiled add runs on a grid of 16 x 2 points: point (b, h) handles batch element `b` and the half `h` of the
  4096 positions, a tile of 1 x 2048 x 1024 entries. Its first operand's block is the same tile of the residual
  stream; its second operand's block is the single row (b, 0, ·) of the reshaped row array, whatever `h` is; the
  body adds the row to every position of the tile and the tile is written back to the same place of the result.

  So what point (b, h) writes back is the restriction to its tile of ONE function of the two arrays the region
  finds, `s[b, l, f] + d[b, 0, f]`; the 32 tiles cover the array (entry (b, l, f) lies in the tile of point
  (b, l / 2048)); hence the whole result array is that function, and, the second array being the reshaped row term,
  it is the residual add of the specification.
-/
import proofs.«114671_j3917010174786_2_alg».proof.Proof.Gen.KernelIdeal.Value
import proofs.«114671_j3917010174786_2_alg».proof.Proof.HostRow

noncomputable section

namespace Cert.Residual

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- (batch, position, feature) ↦ (batch, 0, feature): where an entry finds its row in the reshaped row array. -/
abbrev unitPos (i : S16x4096x1024.Idx) : S16x1x1024.Idx := fun a => match a with
  | ⟨0, _⟩ => ⟨(i 0).val, (i 0).isLt⟩
  | ⟨1, _⟩ => ⟨0, Nat.one_pos⟩
  | ⟨2, _⟩ => ⟨(i 2).val, (i 2).isLt⟩

/-- The result as one function of the two arrays the region finds. -/
def addUnitRow (s : S16x4096x1024.Idx → Elt F .f32) (d : S16x1x1024.Idx → Elt F .f32) : S16x4096x1024.Idx → Elt F .f32 :=
  fun i => FloatOps.addf (s i) (d (unitPos i))

theorem zero_offsets : (![0, 0, 0] : Fin 3 → Nat) = fun _ => 0 := funext fun a => by fin_cases a <;> rfl

/-- One tile: the body's store, over the two loaded blocks, is the tile plus the block's one row at every position. -/
theorem tile_eq (x0 : Vec F S1x2048x1024 .f32) (x1 : Vec F S1x1x1024 .f32) :
    out0_2 x0 x1 = Cert.KernelIdeal.Value.E2 x0 x1 := by
  unfold out0_2
  rw [View.ld_unit_zero (S := S1x2048x1024) zero_offsets, View.ld_unit_zero (S := S1x1x1024) zero_offsets]
  funext y
  exact Cert.KernelIdeal.Value.canon2_eq x0 x1 y

/-- The block indices at a grid point, decided over the 32 points: the first operand's block moves with the result's;
    the second operand's follows it on the batch axis only; the result's are (b, h, 0) with b < 16, h < 2. -/
theorem index_facts : ∀ t : Fin cfg0.N,
    win0_0.index t (0 : Fin 3) = win0_2.index t (0 : Fin 3)
    ∧ win0_0.index t (1 : Fin 3) = win0_2.index t (1 : Fin 3)
    ∧ win0_0.index t (2 : Fin 3) = win0_2.index t (2 : Fin 3)
    ∧ win0_1.index t (0 : Fin 3) = win0_2.index t (0 : Fin 3)
    ∧ win0_1.index t (1 : Fin 3) = 0
    ∧ win0_1.index t (2 : Fin 3) = 0
    ∧ win0_2.index t (2 : Fin 3) = 0
    ∧ win0_2.index t (0 : Fin 3) ≤ 15
    ∧ win0_2.index t (1 : Fin 3) ≤ 1 :=
  (by decide +kernel : ∀ t : Fin grid0.N, _)

/-- Every (batch, half) is some point's tile. -/
theorem index_onto : ∀ (b : Fin 16) (h : Fin 2), ∃ t : Fin cfg0.N, win0_2.index t = ![b.val, h.val, 0] :=
  (by decide +kernel : ∀ (b : Fin 16) (h : Fin 2), ∃ t : Fin grid0.N, win0_2.index t = ![b.val, h.val, 0])

/-- What point `t` writes back is tile `t` of `addUnitRow` of the arrays as the region finds them. -/
theorem flushed_eq (c : Dev nD) (t : Fin cfg0.N) :
    (dats m 0 c).flushed 2 t
      = ((cfg0.win 2).blk t).view.read (Elt F) (addUnitRow (V m c main_arg0) (V m c main_call0_v47)) := by
  show (cfg0.win 2).cut (grid0.coords t) ((dats m 0 c).after 2 t) = _
  rw [after0_2]
  rw [show out0_2 (iblk m c 0 t) (iblk m c 1 t) = Cert.KernelIdeal.Value.E2 (iblk m c 0 t) (iblk m c 1 t) from
    tile_eq (iblk m c 0 t) (iblk m c 1 t)]
  obtain ⟨e0, e1, e2, e3, e4, e5, e6, e7, e8⟩ := index_facts t
  funext j
  show FloatOps.addf (V m c main_arg0 (((cfg0.win 0).blk t).view.emb (Cert.KernelIdeal.Value.ix2_0 j)))
        (V m c main_call0_v47 (((cfg0.win 1).blk t).view.emb (Cert.KernelIdeal.Value.ix2_1 j)))
      = FloatOps.addf (V m c main_arg0 (((cfg0.win 2).blk t).view.emb j))
        (V m c main_call0_v47 (unitPos (((cfg0.win 2).blk t).view.emb j)))
  have hj0 : (j 0).val < 1 := (j 0).isLt
  have h0 : ((cfg0.win 0).blk t).view.emb (Cert.KernelIdeal.Value.ix2_0 j) = ((cfg0.win 2).blk t).view.emb j := by
    funext a; apply Fin.ext
    match a with
    | ⟨0, _⟩ => show win0_0.index t (0 : Fin 3) * 1 + 1 * 0 = win0_2.index t (0 : Fin 3) * 1 + 1 * (j 0).val; omega
    | ⟨1, _⟩ => show win0_0.index t (1 : Fin 3) * 2048 + 1 * (j 1).val = win0_2.index t (1 : Fin 3) * 2048 + 1 * (j 1).val; omega
    | ⟨2, _⟩ => show win0_0.index t (2 : Fin 3) * 1024 + 1 * (j 2).val = win0_2.index t (2 : Fin 3) * 1024 + 1 * (j 2).val; omega
  have h1 : ((cfg0.win 1).blk t).view.emb (Cert.KernelIdeal.Value.ix2_1 j) = unitPos (((cfg0.win 2).blk t).view.emb j) := by
    funext a; apply Fin.ext
    match a with
    | ⟨0, _⟩ => show win0_1.index t (0 : Fin 3) * 1 + 1 * 0 = win0_2.index t (0 : Fin 3) * 1 + 1 * (j 0).val; omega
    | ⟨1, _⟩ => show win0_1.index t (1 : Fin 3) * 1 + 1 * 0 = 0; omega
    | ⟨2, _⟩ => show win0_1.index t (2 : Fin 3) * 1024 + 1 * (j 2).val = win0_2.index t (2 : Fin 3) * 1024 + 1 * (j 2).val; omega
  rw [h0, h1]

/-- An entry is in point `t`'s tile iff each coordinate is in the tile's range on its axis. -/
theorem mem_tile (t : Fin cfg0.N) (i : S16x4096x1024.Idx) :
    i ∈ ((cfg0.win 2).blk t).view.set ↔ ∀ a : Fin 3, win0_2.index t a * S1x2048x1024.size a ≤ (i a).val
      ∧ (i a).val < win0_2.index t a * S1x2048x1024.size a + S1x2048x1024.size a := by
  show i ∈ ((View.whole main_v0).slice (win0_2.rect t)).set ↔ _
  rw [View.set_slice_whole, Rect.mem_set_unit]
  exact Iff.rfl

/-- The tiles cover the array: entry (b, l, f) lies in the tile of the point with block index (b, l / 2048, 0). -/
theorem tiles_cover (i : S16x4096x1024.Idx) :
    ∃ t : Fin cfg0.N, (cfg0.win 2).flush t = true ∧ i ∈ ((cfg0.win 2).blk t).view.set := by
  have hi0 : (i 0).val < 16 := (i 0).isLt
  have hi1 : (i 1).val < 4096 := (i 1).isLt
  have hi2 : (i 2).val < 1024 := (i 2).isLt
  obtain ⟨t, ht⟩ := index_onto ⟨(i 0).val, hi0⟩ ⟨(i 1).val / 2048, by omega⟩
  have q0 : win0_2.index t (0 : Fin 3) = (i 0).val := congrFun ht 0
  have q1 : win0_2.index t (1 : Fin 3) = (i 1).val / 2048 := congrFun ht 1
  have q2 : win0_2.index t (2 : Fin 3) = 0 := congrFun ht 2
  refine ⟨t, flush0_2 t, ?_⟩
  rw [mem_tile]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 2048 ≤ (i 1).val ∧ (i 1).val < win0_2.index t (1 : Fin 3) * 2048 + 2048; omega
  | ⟨2, _⟩ => show win0_2.index t (2 : Fin 3) * 1024 ≤ (i 2).val ∧ (i 2).val < win0_2.index t (2 : Fin 3) * 1024 + 1024; omega

/-- The result array after the run, over the arrays the region finds. -/
theorem result_found (c : Dev nD) :
    (dats m 0 c).arrAt 2 cfg0.N = addUnitRow (V m c main_arg0) (V m c main_call0_v47) :=
  (dats m 0 c).arrAt_eq_of_cover 2 _ (fun t _ => flushed_eq m c t) tiles_cover

/-- Forgetting the unit axis after inserting it is dropping the position. -/
theorem dropUnit_unitPos (i : S16x4096x1024.Idx) : dropUnit (unitPos i) = dropPos i :=
  funext fun a => Fin.ext (by match a with | ⟨0, _⟩ => rfl | ⟨1, _⟩ => rfl)

/-- The result array after the run, over the kernel's arguments: the residual add of the stream and the row term. -/
theorem result_args (c : Dev nD) :
    (dats m 0 c).arrAt 2 cfg0.N = addRow (m ((c : Thread nD τ).loc main_arg0)) (kernelRow m c) := by
  rw [result_found, V_main_arg0]
  funext i
  show FloatOps.addf (m ((c : Thread nD τ).loc main_arg0) i) (V m c main_call0_v47 (unitPos i))
    = FloatOps.addf (m ((c : Thread nD τ).loc main_arg0) i) (kernelRow m c (dropPos i))
  rw [hostRow_apply, dropUnit_unitPos]

/-- The kernel's run, read: the result is the residual add of its arguments, the arguments unchanged. -/
theorem kernel_run : θ_run defs (onTc (τ := τ) (main (F := F))) ⟨m, fun _ => 0, ρ⟩ fun r => ∀ c : Dev nD,
      r.2.mem ((c : Thread nD τ).loc main_v0) = addRow (m ((c : Thread nD τ).loc main_arg0)) (kernelRow m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21) :=
  (θ_run defs _ _).mono (fun r h c => ⟨(h c).1.trans (result_args m c), (h c).2⟩)
    (Cert.KernelIdeal.Value.run_blocks m ρ)

end Cert.Residual

end
-- ==== Proof.RefRun.lean ====
/-
  The reference's run, read: it ends with the residual add of its first argument and its own row term (the sum of the
  three modality projections of its other arguments), its arguments unchanged. The run itself is the generated one;
  the result's term is identified with the specification's function by Proof/Spec.lean.
-/
import proofs.«114671_j3917010174786_2_alg».proof.Proof.Spec

noncomputable section

namespace Cert.Residual

open Idealize.ShloMosaic Idealize.ShloMosaic.TcCoe Idealize.SL.Sem
open Cert.ReferenceIdeal Cert.ReferenceIdeal.Gen

variable {F : FTy → Type} [FloatOps F]
variable (m : (ℓ : Loc nD τ sig) → Buf (Elt F) ℓ) (ρ : Dev nD → PrngReg)

/-- The row term of the reference's arguments on core `c`. -/
abbrev referenceRow (c : Dev nD) : S16x1024.Idx → Elt F .f32 :=
  Cert.ReferenceIdeal.Read.val_main_v46 (F := F) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))

theorem reference_run : θ_run defs (onTc (τ := τ) (main (F := F))) ⟨m, fun _ => 0, ρ⟩ fun r => ∀ c : Dev nD,
      r.2.mem ((c : Thread nD τ).loc main_v49) = addRow (m ((c : Thread nD τ).loc main_arg0)) (referenceRow m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21) :=
  (θ_run defs _ _).mono (fun _ h c => ⟨(h c).1.trans
      ((Cert.ReferenceIdeal.Read.val_main_v49_eq (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))).trans
        (reference_eq (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))), (h c).2⟩)
    (Cert.ReferenceIdeal.Value.run (F := F) m ρ)

end Cert.Residual

end
-- ==== Proof.lean ====
/-
  The residual add of a fused cross-attention block, tiled.

  Both programs take a residual stream `s` (16 batch elements, 4096 positions, 1024 features) and, for each of
  three modalities, a feature matrix and three affine layers; each modality contributes one row of 1024 features per
  batch element (its features through the three layers — attention over a single key has weight one, so nothing else
  of the attention survives), the three rows are added, and the sum `d` is added to every position of the stream:

      out[b, l, f] = s[b, l, f] + d[b, f].

  The reference does this with two broadcasts and one addition of whole arrays. The kernel's program computes `d` on
  the host by the same operations in the same order, reshapes it to 16 x 1 x 1024, and adds it to the stream tile by
  tile: a grid of 16 x 2 points, each adding one row to a tile of 2048 positions of one batch element.

  The row `d` is the same term of the arguments on both sides and is never opened: no algebraic law is used, only
  that the tiles cover the array (Proof/Tiles.lean), that the reshape forgets a unit axis (Proof/HostRow.lean), and that
  the reference's two broadcasts drop the position coordinate (Proof/Spec.lean). In particular the precondition (finite
  inputs) is not needed for the equality: sums of extended reals are compared with themselves. The idealization
  rewrote no operation of the kernel, so there is nothing to preserve; the three frames are the generated ones.
-/
import proofs.«114671_j3917010174786_2_alg».proof.Defs
import proofs.«114671_j3917010174786_2_alg».proof.Proof.Gen.Kernel
import proofs.«114671_j3917010174786_2_alg».proof.Proof.Gen.Kernel.Skeleton
import proofs.«114671_j3917010174786_2_alg».proof.Proof.Gen.Kernel.Launch
import proofs.«114671_j3917010174786_2_alg».proof.Proof.Gen.Kernel.Points
import proofs.«114671_j3917010174786_2_alg».proof.Proof.Gen.Kernel.Frame
import proofs.«114671_j3917010174786_2_alg».proof.Proof.Gen.KernelIdeal
import proofs.«114671_j3917010174786_2_alg».proof.Proof.Gen.KernelIdeal.Skeleton
import proofs.«114671_j3917010174786_2_alg».proof.Proof.Gen.KernelIdeal.Launch
import proofs.«114671_j3917010174786_2_alg».proof.Proof.Gen.KernelIdeal.Points
import proofs.«114671_j3917010174786_2_alg».proof.Proof.Gen.KernelIdeal.Frame
import proofs.«114671_j3917010174786_2_alg».proof.Proof.Gen.ReferenceIdeal
import proofs.«114671_j3917010174786_2_alg».proof.Proof.Gen.Pre_finite_inputs
import proofs.«114671_j3917010174786_2_alg».proof.Proof.Gen.KernelIdeal.Value
import proofs.«114671_j3917010174786_2_alg».proof.Proof.Gen.ReferenceIdeal.Run
import proofs.«114671_j3917010174786_2_alg».proof.Proof.Gen.ReferenceIdeal.Read
import proofs.«114671_j3917010174786_2_alg».proof.Proof.Spec
import proofs.«114671_j3917010174786_2_alg».proof.Proof.HostRow
import proofs.«114671_j3917010174786_2_alg».proof.Proof.Tiles
import proofs.«114671_j3917010174786_2_alg».proof.Proof.RefRun
import Idealize.ShloMosaic.Adequacy
import Idealize.ShloMosaic.Init

noncomputable section

namespace Cert.Proof

open Idealize.ShloMosaic Idealize.SL.Sem

/-- The word-level kernel runs to the end, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals. -/
theorem preserves : Cert.preserves_Kernel_KernelIdeal := trivial

/-- From arguments that agree, both programs end with the stream plus the row term at every position: the two
    results are one function of arguments that are equal. -/
theorem algebraic : Cert.algebraic_KernelIdeal_ReferenceIdeal := by
  intro m ρ m' ρ' _ hagree
  refine ⟨_, Cert.Residual.kernel_run (F := Ideal) m ρ, ?_⟩
  refine (θ_run Cert.ReferenceIdeal.defs _ _).mono (fun _ h c => ⟨(h c).1.trans ?_, (h c).2⟩)
    (Cert.Residual.reference_run (F := Ideal) m' ρ')
  obtain ⟨a0, a1, a2, a3, a4, a5, a6, a7, a8, a9, a10, a11, a12, a13, a14, a15, a16, a17, a18, a19, a20, a21⟩ := hagree c
  dsimp only [Cert.Residual.referenceRow, Cert.Residual.kernelRow]
  rw [a0, a1, a2, a3, a4, a5, a6, a7, a8, a9, a10, a11, a12, a13, a14, a15, a16, a17, a18, a19, a20, a21]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
